-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S1600000 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S8000x1 : Shape := ⟨2, ![8000, 1]⟩
abbrev S8000x128 : Shape := ⟨2, ![8000, 128]⟩

abbrev nBuf : Space → Nat
  | .hbm => 24
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1x128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S8000x1, .f32⟩
  | .local _ .vmem, ⟨7, _⟩ => ⟨S8000x1, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S8000x1_S8000x128 : S8000x1.Broadcasts S8000x128
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S1600000x1.size a
  hwx1_0 : ∀ i : grid1.Coords, EltTy.bits .f32 = 32 ∨ (Rect.block (s := S1600000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S1600000x128.size a
  hwx1_1 : ∀ i : grid1.Coords, EltTy.bits .f32 = 32 ∨ (Rect.block (s := S1600000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S10000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_1_0_0_n_n_wf : DotDims.WF S100000x128 S128x128 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.PositivePart.lean ====
/-
  The last kernel region: every block of the aggregated array is replaced by its positive part.

  Each grid point reads one block of 10000 rows of the aggregated array and stores the entrywise maximum of that
  block with zero into the same rows of the result. The ten blocks tile the 100000 rows, so after the region the
  result array is the entrywise maximum with zero of the whole aggregated array as the region found it.
-/
import proofs.«143168_j23630910062645_2_alg».proof.Proof.Gen.KernelIdeal.Frame
import Idealize.ShloMosaic.Lib.Pipeline.Value
import Idealize.ShloMosaic.Lib.ValueIdx

noncomputable section

namespace Cert.KernelIdeal.PositivePart

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero_offsets : (![0, 0] : Fin 2 → Nat) = fun _ => 0 := funext fun a => by fin_cases a <;> rfl

/-- The positive part of an array, entry by entry (zero kept as the float word it is printed as). -/
def positivePart (a : S100000x128.Idx → EReal) : S100000x128.Idx → EReal := fun i =>
  FloatOps.maximumf (F := Ideal) (a i) (FloatOps.ofBits (F := Ideal) .f32 0x00000000#32)

/-- The body's stored value at an entry of the block is the maximum of the loaded entry with zero. -/
theorem stored_apply (x0 : Vec Ideal S10000x128 .f32) (j : S10000x128.Idx) :
    k2_pay1 (F := Ideal) x0 j = FloatOps.maximumf (F := Ideal) (x0 j) (FloatOps.ofBits (F := Ideal) .f32 0x00000000#32) := by
  unfold k2_pay1
  rw [shapeCast_self]
  rfl

/-- The printed index maps over the grid: the input block and the output block of a point are the same rows. -/
theorem index_facts : ∀ t : Fin cfg2.N, win2_0.index t (0 : Fin 2) = t.val
    ∧ win2_0.index t (1 : Fin 2) = 0
    ∧ win2_1.index t (0 : Fin 2) = t.val
    ∧ win2_1.index t (1 : Fin 2) = 0 :=
  (by decide +kernel : ∀ t : Fin grid2.N, _)

/-- What point `t` writes back is block `t` of the positive part of the aggregated array. -/
theorem flushed_eq (c : Dev nD) (t : Fin cfg2.N) :
    (dat2 V c).flushed 1 t = ((cfg2.win 1).blk t).view.read (Elt Ideal) (positivePart (V c main_v13)) := by
  show (cfg2.win 1).cut (grid2.coords t) ((dat2 V c).after 1 t) = _
  rw [after2_1]
  unfold out2_1
  rw [View.canon_unit_zero zero_offsets]
  simp only [View.ld_unit_zero (S := S10000x128) zero_offsets]
  obtain ⟨e0, e1, e2, e3⟩ := index_facts t
  funext j
  show k2_pay1 (F := Ideal) (iblk2 V c 0 t) j = positivePart (V c main_v13) (((cfg2.win 1).blk t).view.emb j)
  refine (stored_apply (iblk2 V c 0 t) j).trans ?_
  show FloatOps.maximumf (F := Ideal) (V c main_v13 (((cfg2.win 0).blk t).view.emb j)) _ = FloatOps.maximumf (F := Ideal) (V c main_v13 (((cfg2.win 1).blk t).view.emb j)) _
  have h0 : ((cfg2.win 0).blk t).view.emb j = ((cfg2.win 1).blk t).view.emb j := by
    funext a; apply Fin.ext
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 128 + 1 * (j 1).val = win2_1.index t (1 : Fin 2) * 128 + 1 * (j 1).val; omega
  rw [h0]

/-- An index of the result array is in point `t`'s block iff each coordinate is in the block's range. -/
theorem mem_block (t : Fin cfg2.N) (i : S100000x128.Idx) :
    i ∈ ((cfg2.win 1).blk t).view.set ↔ ∀ a : Fin 2, win2_1.index t a * S10000x128.size a ≤ (i a).val ∧ (i a).val < win2_1.index t a * S10000x128.size a + S10000x128.size a := by
  show i ∈ ((View.whole main_v14).slice (win2_1.rect t)).set ↔ _
  rw [View.set_slice_whole, Rect.mem_set_unit]
  exact Iff.rfl

/-- Every row of the result lies in the block of the point numbered by the row divided by the block height. -/
theorem covered (i : S100000x128.Idx) :
    ∃ t : Fin cfg2.N, (cfg2.win 1).flush t = true ∧ i ∈ ((cfg2.win 1).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3⟩ := index_facts t
  have ht : t.val = (i 0).val / 10000 := rfl
  refine ⟨t, flush2_1 t, ?_⟩
  rw [mem_block]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 128 ≤ (i 1).val ∧ (i 1).val < win2_1.index t (1 : Fin 2) * 128 + 128; omega

/-- The result array after the region: the positive part of the aggregated array as the region found it. -/
theorem final (c : Dev nD) : (dat2 V c).arrAt 1 cfg2.N = positivePart (V c main_v13) :=
  (dat2 V c).arrAt_eq_of_cover 1 (positivePart (V c main_v13)) (fun t _ => flushed_eq V c t) covered

end Cert.KernelIdeal.PositivePart

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.WeightedRows.lean ====
/-
  The middle kernel region: every gathered row is multiplied by its edge's weight.

  Each grid point reads 8000 edge weights (a column) and the 8000 gathered rows of the same edges, and stores the rows
  with every entry multiplied by the row's weight. The two hundred blocks tile the 1600000 edges, so after the region
  the message array holds, at edge `e` and feature `q`, the weight of `e` times the gathered entry `(e, q)`.
-/
import proofs.«143168_j23630910062645_2_alg».proof.Proof.Gen.KernelIdeal.Frame
import proofs.«143168_j23630910062645_2_alg».proof.Proof.LibColumns
import Idealize.ShloMosaic.Lib.Pipeline.Value
import Idealize.ShloMosaic.Lib.ValueIdx

noncomputable section

namespace Cert.KernelIdeal.WeightedRows

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero_offsets : (![0, 0] : Fin 2 → Nat) = fun _ => 0 := funext fun a => by fin_cases a <;> rfl

/-- The weight column's entry that belongs to the row of a message entry. -/
abbrev weightAt (i : S1600000x128.Idx) : S1600000x1.Idx := fun a => match a with
  | ⟨0, _⟩ => ⟨(i 0).val, (i 0).isLt⟩
  | ⟨1, _⟩ => ⟨0, Nat.one_pos⟩

/-- The weighted rows: entry `(e, q)` of the gathered rows times the weight of edge `e`. -/
def weighted (w : S1600000x1.Idx → EReal) (g : S1600000x128.Idx → EReal) : S1600000x128.Idx → EReal := fun i =>
  FloatOps.mulf (F := Ideal) (φ := .f32) (w (weightAt i)) (g i)

/-- The body's stored value at row `p`, feature `q` of the block: the row's weight times the loaded entry. -/
theorem stored_apply (x0 : Vec Ideal S8000x1 .f32) (x1 : Vec Ideal S8000x128 .f32) (p : Fin 8000) (q : Fin 128) :
    k1_pay1 (F := Ideal) x0 x1 (ix2 p q) = FloatOps.mulf (F := Ideal) (φ := .f32) (x0 (ix2 p (0 : Fin 1))) (x1 (ix2 p q)) := by
  unfold k1_pay1
  rw [shapeCast_self, shapeCast_self]
  show FloatOps.mulf (F := Ideal) (φ := .f32) (broadcastTo S8000x128 x0 broadcasts_S8000x1_S8000x128 (ix2 p q)) (x1 (ix2 p q)) = _
  rw [broadcastTo_a1_ab_apply]

/-- The printed index maps over the grid: at point `t` all three windows are at block `t` of the edge axis. -/
theorem index_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the weighted rows. -/
theorem flushed_eq (c : Dev nD) (t : Fin cfg1.N) :
    (dat1 V c).flushed 2 t = ((cfg1.win 2).blk t).view.read (Elt Ideal) (weighted (V c main_v9) (V c main_v8)) := by
  show (cfg1.win 2).cut (grid1.coords t) ((dat1 V c).after 2 t) = _
  rw [after1_2]
  unfold out1_2
  rw [View.canon_unit_zero zero_offsets]
  simp only [View.ld_unit_zero (S := S8000x1) zero_offsets, View.ld_unit_zero (S := S8000x128) zero_offsets]
  obtain ⟨e0, e1, e2, e3, e4, e5⟩ := index_facts t
  funext j
  obtain ⟨p, q, rfl⟩ : ∃ (p : Fin 8000) (q : Fin 128), j = ix2 p q := ⟨j 0, j 1, eq_ix2 j⟩
  show k1_pay1 (F := Ideal) (iblk1 V c 0 t) (iblk1 V c 1 t) (ix2 p q) = weighted (V c main_v9) (V c main_v8) (((cfg1.win 2).blk t).view.emb (ix2 p q))
  refine (stored_apply (iblk1 V c 0 t) (iblk1 V c 1 t) p q).trans ?_
  show FloatOps.mulf (F := Ideal) (φ := .f32) (V c main_v9 (((cfg1.win 0).blk t).view.emb (ix2 p (0 : Fin 1)))) (V c main_v8 (((cfg1.win 1).blk t).view.emb (ix2 p q)))
    = FloatOps.mulf (F := Ideal) (φ := .f32) (V c main_v9 (weightAt (((cfg1.win 2).blk t).view.emb (ix2 p q)))) (V c main_v8 (((cfg1.win 2).blk t).view.emb (ix2 p q)))
  have hp : p.val < 8000 := p.isLt
  have hq : q.val < 128 := q.isLt
  have h0 : ((cfg1.win 0).blk t).view.emb (ix2 p (0 : Fin 1)) = weightAt (((cfg1.win 2).blk t).view.emb (ix2 p q)) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 1 + 1 * 0 = 0; omega
  have h1 : ((cfg1.win 1).blk t).view.emb (ix2 p q) = ((cfg1.win 2).blk t).view.emb (ix2 p q) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 128 + 1 * q.val = win1_2.index t (1 : Fin 2) * 128 + 1 * q.val; omega
  rw [h0, h1]

/-- An index of the message array is in point `t`'s block iff each coordinate is in the block's range. -/
theorem mem_block (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v10).slice (win1_2.rect t)).set ↔ _
  rw [View.set_slice_whole, Rect.mem_set_unit]
  exact Iff.rfl

/-- Every edge lies in the block of the point numbered by the edge divided by the block height. -/
theorem covered (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 200 := N_1
  let t : Fin cfg1.N := ⟨(i 0).val / 8000, by rw [hN]; omega⟩
  obtain ⟨e0, e1, e2, e3, e4, e5⟩ := index_facts t
  have ht : t.val = (i 0).val / 8000 := rfl
  refine ⟨t, flush1_2 t, ?_⟩
  rw [mem_block]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- The message array after the region: the weighted rows of the weight column and the gathered rows the region found. -/
theorem final (c : Dev nD) : (dat1 V c).arrAt 2 cfg1.N = weighted (V c main_v9) (V c main_v8) :=
  (dat1 V c).arrAt_eq_of_cover 2 (weighted (V c main_v9) (V c main_v8)) (fun t _ => flushed_eq V c t) covered

end Cert.KernelIdeal.WeightedRows

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LinearRows.lean ====
/-
  The first kernel region: the linear layer, ten thousand rows at a time.

  Each grid point reads a block of 10000 rows of `x`, the whole weight matrix `W` (out × in) and the bias row, and
  stores `x_block · Wᵀ + bias`. The ten blocks tile the 100000 rows, so after the region the hidden array holds, at
  node `n` and output feature `o`, the sum over `k` of `x (n, k) * W (o, k)`, plus `bias o`. Rounding the matmul's
  operands to a shorter float format is the identity on the extended reals, and the transposed weight block read at
  `(k, o)` is `W (o, k)`.
-/
import proofs.«143168_j23630910062645_2_alg».proof.Proof.Gen.KernelIdeal.Frame
import proofs.«143168_j23630910062645_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearRows

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero_offsets : (![0, 0] : Fin 2 → Nat) = fun _ => 0 := funext fun a => by fin_cases a <;> rfl

/-- Entry `k` of the input row of a hidden entry `(n, o)`: `(n, k)`. -/
abbrev inputAt (i : S100000x128.Idx) (k : Fin 128) : S100000x128.Idx := fun a => match a with
  | ⟨0, _⟩ => ⟨(i 0).val, (i 0).isLt⟩
  | ⟨1, _⟩ => ⟨k.val, k.isLt⟩
/-- Entry `k` of the weight row of a hidden entry `(n, o)`: `(o, k)`. -/
abbrev weightAt (i : S100000x128.Idx) (k : Fin 128) : S128x128.Idx := fun a => match a with
  | ⟨0, _⟩ => ⟨(i 1).val, (i 1).isLt⟩
  | ⟨1, _⟩ => ⟨k.val, k.isLt⟩
/-- The bias row's entry of a hidden entry `(n, o)`: `(0, o)`. -/
abbrev biasAt (i : S100000x128.Idx) : S1x128.Idx := fun a => match a with
  | ⟨0, _⟩ => ⟨0, Nat.one_pos⟩
  | ⟨1, _⟩ => ⟨(i 1).val, (i 1).isLt⟩

/-- The linear layer, entry by entry: `∑ k, x (n, k) * W (o, k) + bias o`. -/
def linear (x : S100000x128.Idx → EReal) (w : S128x128.Idx → EReal) (b : S1x128.Idx → EReal) : S100000x128.Idx → EReal := fun i =>
  FloatOps.addf (F := Ideal) (φ := .f32) (∑ k : Fin 128, x (inputAt i k) * w (weightAt i k)) (b (biasAt i))

/-- The body's stored value at row `p`, feature `q` of the block: the product of the row block with the transposed
    weights, plus the bias row. -/
theorem stored_apply (x0 : Vec Ideal S10000x128 .f32) (x1 : Vec Ideal S128x128 .f32) (x2 : Vec Ideal S1x128 .f32)
    (p : Fin 10000) (q : Fin 128) :
    k0_pay1 (F := Ideal) x0 x1 x2 (ix2 p q)
      = FloatOps.addf (F := Ideal) (φ := .f32) (∑ k : Fin 128, x0 (ix2 p k) * x1 (ix2 q k)) (x2 (ix2 (0 : Fin 1) q)) := by
  unfold k0_pay1
  rw [shapeCast_self]
  show FloatOps.addf (F := Ideal) (φ := .f32)
      (FloatOps.matmul dot_S10000x128_S128x128_S10000x128_1_0_0_1_n_n none x0
        (transpose S128x128 [1, 0] x1 transposes_S128x128_p1_0_S128x128) (constant S10000x128 .f32 0x00000000#32) (ix2 p q))
      (broadcastTo S10000x128 x2 broadcasts_S1x128_S10000x128 (ix2 p q)) = _
  rw [broadcastTo_1b_ab_apply]
  refine congrArg (fun s => FloatOps.addf (F := Ideal) (φ := .f32) s (x2 (ix2 (0 : Fin 1) q))) ?_
  refine (PlainDot.matmul_zero_apply (M := 10000) (K := 128) (N := 128) dot_S10000x128_S128x128_S10000x128_1_0_0_1_n_n rfl none x0
    (transpose S128x128 [1, 0] x1 transposes_S128x128_p1_0_S128x128) p q).trans ?_
  refine Finset.sum_congr rfl fun k _ => ?_
  rw [transpose_ix2_apply]

/-- The printed index maps over the grid: the input and output row blocks of point `t` are block `t`; the weights and
    the bias row are read whole. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the linear layer of the arrays the region found. -/
theorem flushed_eq (c : Dev nD) (t : Fin cfg0.N) :
    (dat0 V c).flushed 3 t
      = ((cfg0.win 3).blk t).view.read (Elt Ideal) (linear (V c main_arg0) (V c main_arg1) (V c main_v0)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets,
    View.ld_unit_zero (S := S1x128) zero_offsets]
  obtain ⟨e0, e1, e2, e3, e4, e5, e6, e7⟩ := index_facts t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
    = linear (V c main_arg0) (V c main_arg1) (V c main_v0) (((cfg0.win 3).blk t).view.emb (ix2 p q))
  refine (stored_apply (iblk0 V c 0 t) (iblk0 V c 1 t) (iblk0 V c 2 t) p q).trans ?_
  have hp : p.val < 10000 := p.isLt
  have hq : q.val < 128 := q.isLt
  have h0 : ∀ k : Fin 128, ((cfg0.win 0).blk t).view.emb (ix2 p k) = inputAt (((cfg0.win 3).blk t).view.emb (ix2 p q)) k := by
    intro k; funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, ((cfg0.win 1).blk t).view.emb (ix2 q k) = weightAt (((cfg0.win 3).blk t).view.emb (ix2 p q)) k := by
    intro k; funext a; apply Fin.ext
    match a with
    | ⟨0, _⟩ => show win0_1.index t (0 : Fin 2) * 128 + 1 * q.val = win0_3.index t (1 : Fin 2) * 128 + 1 * q.val; omega
    | ⟨1, _⟩ => show win0_1.index t (1 : Fin 2) * 128 + 1 * k.val = k.val; omega
  have h2 : ((cfg0.win 2).blk t).view.emb (ix2 (0 : Fin 1) q) = biasAt (((cfg0.win 3).blk t).view.emb (ix2 p q)) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  have hb : iblk0 V c 2 t (ix2 (0 : Fin 1) q) = V c main_v0 (biasAt (((cfg0.win 3).blk t).view.emb (ix2 p q))) := by
    show V c main_v0 (((cfg0.win 2).blk t).view.emb (ix2 (0 : Fin 1) q)) = _
    rw [h2]
  have hx : ∀ k : Fin 128, iblk0 V c 0 t (ix2 p k) = V c main_arg0 (inputAt (((cfg0.win 3).blk t).view.emb (ix2 p q)) k) := by
    intro k
    show V c main_arg0 (((cfg0.win 0).blk t).view.emb (ix2 p k)) = _
    rw [h0 k]
  have hw : ∀ k : Fin 128, iblk0 V c 1 t (ix2 q k) = V c main_arg1 (weightAt (((cfg0.win 3).blk t).view.emb (ix2 p q)) k) := by
    intro k
    show V c main_arg1 (((cfg0.win 1).blk t).view.emb (ix2 q k)) = _
    rw [h1 k]
  unfold linear
  rw [hb]
  refine congrArg (fun s => FloatOps.addf (F := Ideal) (φ := .f32) s _) (Finset.sum_congr rfl fun k _ => ?_)
  rw [hx k, hw k]

/-- An index of the hidden array is in point `t`'s block iff each coordinate is in the block's range. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Every node's row lies in the block of the point numbered by the row divided by the block height. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5, e6, e7⟩ := index_facts t
  have ht : t.val = (i 0).val / 10000 := rfl
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The hidden array after the region: the linear layer of `x`, `W` and the bias row as the region found them. -/
theorem final (c : Dev nD) : (dat0 V c).arrAt 3 cfg0.N = linear (V c main_arg0) (V c main_arg1) (V c main_v0) :=
  (dat0 V c).arrAt_eq_of_cover 3 (linear (V c main_arg0) (V c main_arg1) (V c main_v0)) (fun t _ => flushed_eq V c t) covered

end Cert.KernelIdeal.LinearRows

end
-- ==== Proof.Folded.lean ====
/-
  The kernel program's result as one function of its arguments.

  The program is three kernel regions among host operations. Reading its final memory backwards: the result is the
  positive part of the array the scatter-add left; the scatter-add adds, into zeros, the weighted rows at the rows
  the destination indices name; the weighted rows are the edge weights (as a column) times the rows the gather took
  out of the hidden array at the normalised source indices; and the hidden array is the linear layer of `x`, `W`
  and the bias (as a row). No host operation and no region writes an argument, so each argument read along the way
  is the launch memory's.
-/
import proofs.«143168_j23630910062645_2_alg».proof.Proof.Gen.KernelIdeal.Frame
import proofs.«143168_j23630910062645_2_alg».proof.Proof.PositivePart
import proofs.«143168_j23630910062645_2_alg».proof.Proof.WeightedRows
import proofs.«143168_j23630910062645_2_alg».proof.Proof.LinearRows
import Idealize.ShloMosaic.Lib.StableHlo.Run
import Idealize.ShloMosaic.PureOps.Ideal

set_option maxRecDepth 16384

noncomputable section

namespace Cert.KernelIdeal.Folded

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal.PositivePart Cert.KernelIdeal.WeightedRows Cert.KernelIdeal.LinearRows

local notation "𝕄" => MT nD τ sig Unit (Elt Ideal) ℕ (UR sig nD τ) ℕ

/-- The source indices as the gather takes them: a negative index counts from the end (100000 is added), and the
    vector becomes a column. -/
def sourceColumn (x4 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x4 (broadcastInDim S1600000 ![] bcast_S_S1600000 (constantI S_ 32 0#32)))
      (addi x4 (broadcastInDim S1600000 ![] bcast_S_S1600000 (constantI S_ 32 100000#32))) x4)

/-- The whole program: linear layer, gather at the sources, weighting, scatter-add at the destinations, positive part. -/
def result (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S1600000, .f32⟩ : BufTy).Contents (Elt Ideal))
    (x4 x5 : (⟨S1600000, .i32⟩ : BufTy).Contents (Elt Ideal)) : (⟨S100000x128, .f32⟩ : BufTy).Contents (Elt Ideal) :=
  positivePart
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 x5)
      (weighted (shapeCast S1600000x1 x3 shapeCasts_S1600000_S1600000x1)
        (Host.gather gather_S100000x128_S1600000x1_S1600000x128_1_0_n_n_0_1_1128
          (linear x0 x1 (shapeCast S1x128 x2 shapeCasts_S128_S1x128)) (sourceColumn x4))))

variable (m : (ℓ : Loc nD τ sig) → Buf (Elt Ideal) ℓ) (ρ : Dev nD → PrngReg)

/-! ## The first region's entry: `x` and `W` as launched, the bias as a row -/

theorem entry_x (c : Dev nD) : V1 m ρ c main_arg0 = m ((c : Thread nD τ).loc main_arg0) := by
  show StableHlo.after hostOps0 (W0 m ρ c) (Proc.devRef .tc main_arg0) = _
  after_results <;> rfl
theorem entry_w (c : Dev nD) : V1 m ρ c main_arg1 = m ((c : Thread nD τ).loc main_arg1) := by
  show StableHlo.after hostOps0 (W0 m ρ c) (Proc.devRef .tc main_arg1) = _
  after_results <;> rfl
theorem entry_bias (c : Dev nD) :
    V1 m ρ c main_v0 = shapeCast S1x128 (m ((c : Thread nD τ).loc main_arg2)) shapeCasts_S128_S1x128 := by
  show StableHlo.after hostOps0 (W0 m ρ c) (Proc.devRef .tc main_v0) = _
  after_results <;> rfl

/-- After the first region the hidden array is the linear layer of the launch arguments. -/
theorem hidden_eq (c : Dev nD) :
    W2 m ρ c (Proc.devRef .tc main_v1)
      = linear (m ((c : Thread nD τ).loc main_arg0)) (m ((c : Thread nD τ).loc main_arg1))
          (shapeCast S1x128 (m ((c : Thread nD τ).loc main_arg2)) shapeCasts_S128_S1x128) := by
  refine ((W2_arr m ρ c 3).trans (LinearRows.final (V1 m ρ) c)).trans ?_
  rw [entry_x, entry_w, entry_bias]

/-! ## The arguments read later are the launch memory's -/

theorem launched_w2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl
theorem launched_w2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl
theorem launched_w2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl
theorem launched_w4_arg5 (c : Dev nD) : W4 m ρ c (Proc.devRef .tc main_arg5) = m ((c : Thread nD τ).loc main_arg5) := by
  refine (W4_of_ne m ρ c main_arg5 (by decide)).trans ?_
  refine Eq.trans ?_ (launched_w2_arg5 m ρ c)
  show StableHlo.after hostOps1 (W2 m ρ c) (Proc.devRef .tc main_arg5) = _
  after_results <;> rfl

/-! ## The second region's entry: the weights as a column, the rows gathered out of the hidden array -/

theorem entry_weights (c : Dev nD) :
    V3 m ρ c main_v9 = shapeCast S1600000x1 (m ((c : Thread nD τ).loc main_arg3)) shapeCasts_S1600000_S1600000x1 := by
  rw [← launched_w2_arg3 m ρ c]
  show StableHlo.after hostOps1 (W2 m ρ c) (Proc.devRef .tc main_v9) = _
  after_results <;> rfl

theorem entry_gathered (c : Dev nD) :
    V3 m ρ c main_v8
      = Host.gather gather_S100000x128_S1600000x1_S1600000x128_1_0_n_n_0_1_1128
          (W2 m ρ c (Proc.devRef .tc main_v1)) (sourceColumn (m ((c : Thread nD τ).loc main_arg4))) := by
  rw [← launched_w2_arg4 m ρ c]
  unfold sourceColumn
  show StableHlo.after hostOps1 (W2 m ρ c) (Proc.devRef .tc main_v8) = _
  after_results <;> rfl

/-- After the second region the message array is the weighted gathered rows. -/
theorem messages_eq (c : Dev nD) :
    W4 m ρ c (Proc.devRef .tc main_v10)
      = weighted (shapeCast S1600000x1 (m ((c : Thread nD τ).loc main_arg3)) shapeCasts_S1600000_S1600000x1)
          (Host.gather gather_S100000x128_S1600000x1_S1600000x128_1_0_n_n_0_1_1128
            (W2 m ρ c (Proc.devRef .tc main_v1)) (sourceColumn (m ((c : Thread nD τ).loc main_arg4)))) := by
  refine ((W4_arr m ρ c 2).trans (WeightedRows.final (V3 m ρ) c)).trans ?_
  rw [entry_weights, entry_gathered]

/-! ## The third region's entry: the scatter-add of the messages into zeros -/

theorem entry_aggregated (c : Dev nD) :
    V5 m ρ c main_v13
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (m ((c : Thread nD τ).loc main_arg5)))
          (W4 m ρ c (Proc.devRef .tc main_v10)) := by
  rw [← launched_w4_arg5 m ρ c]
  show StableHlo.after hostOps2 (W4 m ρ c) (Proc.devRef .tc main_v13) = _
  after_results <;> rfl

/-- The program's result buffer at the last boundary is `result` of the launch arguments. -/
theorem result_eq (c : Dev nD) :
    W6 m ρ c (Proc.devRef .tc main_v14)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W6_arr m ρ c 1).trans (PositivePart.final (V5 m ρ) c)).trans ?_
  rw [entry_aggregated, messages_eq, hidden_eq]
  rfl

end Cert.KernelIdeal.Folded

end
-- ==== Proof.KernelRun.lean ====
/-
  The kernel program's run with its result named.

  Every weakly fair execution of the program terminates without a fault; the final state holds, at every unscoped
  buffer, the contents the last boundary of the program's segments names. Read at the result buffer that is
  `Folded.result` of the launch arguments, and at each argument the launch memory.
-/
import proofs.«143168_j23630910062645_2_alg».proof.Proof.Folded

set_option maxRecDepth 16384

noncomputable section

namespace Cert.KernelIdeal.Folded

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end with the result buffer at `result` of the launch arguments and the arguments unchanged. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v14 (by decide))).trans (result_eq m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Folded

end
-- ==== Proof.SameFunction.lean ====
/-
  The reference computes the same function.

  The reference is one line of host operations: `x · Wᵀ` as a contraction of the two last axes, plus the bias spread
  over the rows; the rows gathered at the normalised source indices; each gathered row times its edge's weight (the
  weight vector spread as a column, then over the features); the scatter-add into zeros at the destination indices;
  and the maximum with zero. Entry by entry the first, third and last of these are the kernel regions' functions —
  the same sum over `k` of `x (n, k) * W (o, k)` plus `bias o`, the same product with the edge's weight, the same
  maximum with zero — and the gather, the index arithmetic and the scatter-add are the very same host operations on
  both sides. No law of the extended reals is needed beyond reading both sides at an index.
-/
import proofs.«143168_j23630910062645_2_alg».proof.Proof.Folded
import proofs.«143168_j23630910062645_2_alg».proof.Proof.Gen.ReferenceIdeal.Read
import Idealize.ShloMosaic.Lib.ValueLayout

noncomputable section

namespace Cert.SameFunction

open Idealize.ShloMosaic Idealize.ShloMosaic.ValueIdx
open Cert.ReferenceIdeal.Read
open Cert.KernelIdeal.Folded
open Cert.KernelIdeal.PositivePart (positivePart)
open Cert.KernelIdeal.WeightedRows (weighted)
open Cert.KernelIdeal.LinearRows (linear)

/-- The reference's last operation, the maximum with a spread zero, is the positive part. -/
theorem positivePart_eq (a : (⟨Cert.KernelIdeal.S100000x128, .f32⟩ : BufTy).Contents (Elt Ideal)) :
    (maximumf a (val_main_call0_v0 (F := Ideal)) : FVec Ideal Cert.KernelIdeal.S100000x128 .f32) = positivePart a := by
  funext i
  show FloatOps.maximumf (F := Ideal) (a i) (val_main_call0_v0 (F := Ideal) i)
    = FloatOps.maximumf (F := Ideal) (a i) (FloatOps.ofBits (F := Ideal) .f32 0x00000000#32)
  rw [val_main_call0_v0_apply, val_main_call0_cst_apply]

/-- The weight vector cast to a column, read at the row of a message entry, is the weight of that edge. -/
theorem column_apply (x3 : (⟨Cert.KernelIdeal.S1600000, .f32⟩ : BufTy).Contents (Elt Ideal)) (i : Cert.KernelIdeal.S1600000x128.Idx) :
    shapeCast Cert.KernelIdeal.S1600000x1 x3 Cert.KernelIdeal.Facts₀.shapeCasts_S1600000_S1600000x1 (Cert.KernelIdeal.WeightedRows.weightAt i)
      = x3 (idx_main_v4 (idx_main_v12 i)) :=
  shapeCast_apply x3 _ _ _ (by
    rw [Shape.rowMajor_val_two, Shape.rowMajor_val_one]
    show (i 0).val = (i 0).val * 1 + 0
    omega)

/-- The reference's product of the spread weights with the gathered rows is the weighted rows. -/
theorem weighted_eq (x3 : (⟨Cert.KernelIdeal.S1600000, .f32⟩ : BufTy).Contents (Elt Ideal))
    (g : (⟨Cert.KernelIdeal.S1600000x128, .f32⟩ : BufTy).Contents (Elt Ideal)) :
    (mulf (val_main_v12 (F := Ideal) x3) g : FVec Ideal Cert.KernelIdeal.S1600000x128 .f32)
      = weighted (shapeCast Cert.KernelIdeal.S1600000x1 x3 Cert.KernelIdeal.Facts₀.shapeCasts_S1600000_S1600000x1) g := by
  funext i
  show FloatOps.mulf (F := Ideal) (φ := .f32) (val_main_v12 (F := Ideal) x3 i) (g i)
    = FloatOps.mulf (F := Ideal) (φ := .f32)
        (shapeCast Cert.KernelIdeal.S1600000x1 x3 Cert.KernelIdeal.Facts₀.shapeCasts_S1600000_S1600000x1 (Cert.KernelIdeal.WeightedRows.weightAt i)) (g i)
  rw [val_main_v12_apply, val_main_v4_apply, column_apply]

/-- The bias vector cast to a row, read under a hidden entry `(n, o)`, is `bias o`. -/
theorem row_apply (x2 : (⟨Cert.KernelIdeal.S128, .f32⟩ : BufTy).Contents (Elt Ideal)) (i : Cert.KernelIdeal.S100000x128.Idx) :
    shapeCast Cert.KernelIdeal.S1x128 x2 Cert.KernelIdeal.Facts₀.shapeCasts_S128_S1x128 (Cert.KernelIdeal.LinearRows.biasAt i)
      = x2 (idx_main_v1 (idx_main_v2 i)) :=
  shapeCast_apply x2 _ _ _ (by
    rw [Shape.rowMajor_val_two, Shape.rowMajor_val_one]
    show (i 1).val = 0 * 128 + (i 1).val
    omega)

/-- The reference's contraction plus the spread bias is the linear layer. -/
theorem linear_eq (x0 : (⟨Cert.KernelIdeal.S100000x128, .f32⟩ : BufTy).Contents (Elt Ideal))
    (x1 : (⟨Cert.KernelIdeal.S128x128, .f32⟩ : BufTy).Contents (Elt Ideal)) (x2 : (⟨Cert.KernelIdeal.S128, .f32⟩ : BufTy).Contents (Elt Ideal)) :
    (val_main_v3 (F := Ideal) x0 x1 x2 : FVec Ideal Cert.KernelIdeal.S100000x128 .f32)
      = linear x0 x1 (shapeCast Cert.KernelIdeal.S1x128 x2 Cert.KernelIdeal.Facts₀.shapeCasts_S128_S1x128) := by
  funext i
  rw [val_main_v3_apply, val_main_v0_apply, val_main_v2_apply, val_main_v1_apply]
  unfold linear
  rw [row_apply]
  rfl

/-- The reference's result stage is the kernel program's `result`, as functions of the six arguments. -/
theorem reference_eq (x0 : (⟨Cert.KernelIdeal.S100000x128, .f32⟩ : BufTy).Contents (Elt Ideal))
    (x1 : (⟨Cert.KernelIdeal.S128x128, .f32⟩ : BufTy).Contents (Elt Ideal)) (x2 : (⟨Cert.KernelIdeal.S128, .f32⟩ : BufTy).Contents (Elt Ideal))
    (x3 : (⟨Cert.KernelIdeal.S1600000, .f32⟩ : BufTy).Contents (Elt Ideal)) (x4 x5 : (⟨Cert.KernelIdeal.S1600000, .i32⟩ : BufTy).Contents (Elt Ideal)) :
    (val_main_v17 (F := Ideal) x0 x1 x2 x3 x4 x5 : FVec Ideal Cert.KernelIdeal.S100000x128 .f32) = result x0 x1 x2 x3 x4 x5 := by
  unfold val_main_v17 val_main_v16 val_main_v13 val_main_v11 result
  rw [positivePart_eq, weighted_eq, linear_eq]
  rfl

end Cert.SameFunction

end
-- ==== Proof.lean ====
/-
  A graph-convolution layer, kernel against reference, over the extended reals.

  Both programs compute, for node `i` and output feature `o`,

      out (i, o) = max (∑ over the edges e with dst e = i of  w e * h (src e, o)) 0,
      h (n, o)   = ∑ k, x (n, k) * W (o, k) + b o.

  The kernel program does it in three kernel regions with host operations between them: the linear layer `h` ten
  thousand rows at a time (the operands of its matrix product rounded to a shorter format, which is the identity on
  the extended reals); a host gather of the rows `h (src e, ·)`; the products with the edge weights eight thousand
  edges at a time; a host scatter-add into zeros at the rows `dst e`; and the maximum with zero ten thousand rows at
  a time. The reference is the same chain as host operations only. The gather (with its normalisation of negative
  indices) and the scatter-add are the same host operations on both sides and are never opened; what is proved is
  that each region leaves, in the whole array it writes, the reference's corresponding stage, entry by entry
  (`LinearRows`, `WeightedRows`, `PositivePart`), that the program's final memory is the composition of these
  stages (`Folded`, `KernelRun`), and that the reference's composed term is that same composition (`SameFunction`).
  No finiteness of the inputs is used: no distributivity or cancellation is needed, only the two sides read at an
  index. The ideal pass rewrote nothing, so the idealized kernel is the kernel's own text.
-/
import proofs.«143168_j23630910062645_2_alg».proof.Defs
import proofs.«143168_j23630910062645_2_alg».proof.Proof.Gen.Kernel
import proofs.«143168_j23630910062645_2_alg».proof.Proof.Gen.Kernel.Skeleton
import proofs.«143168_j23630910062645_2_alg».proof.Proof.Gen.Kernel.Launch
import proofs.«143168_j23630910062645_2_alg».proof.Proof.Gen.Kernel.Points
import proofs.«143168_j23630910062645_2_alg».proof.Proof.Gen.Kernel.Frame
import proofs.«143168_j23630910062645_2_alg».proof.Proof.Gen.KernelIdeal
import proofs.«143168_j23630910062645_2_alg».proof.Proof.Gen.KernelIdeal.Skeleton
import proofs.«143168_j23630910062645_2_alg».proof.Proof.Gen.KernelIdeal.Launch
import proofs.«143168_j23630910062645_2_alg».proof.Proof.Gen.KernelIdeal.Points
import proofs.«143168_j23630910062645_2_alg».proof.Proof.Gen.KernelIdeal.Frame
import proofs.«143168_j23630910062645_2_alg».proof.Proof.Gen.ReferenceIdeal
import proofs.«143168_j23630910062645_2_alg».proof.Proof.Gen.Pre_finite_inputs
import proofs.«143168_j23630910062645_2_alg».proof.Proof.Gen.ReferenceIdeal.Run
import proofs.«143168_j23630910062645_2_alg».proof.Proof.Gen.ReferenceIdeal.Read
import proofs.«143168_j23630910062645_2_alg».proof.Proof.KernelRun
import proofs.«143168_j23630910062645_2_alg».proof.Proof.SameFunction
import Idealize.ShloMosaic.Adequacy
import Idealize.ShloMosaic.Init

noncomputable section

namespace Cert.Proof

open Idealize.ShloMosaic Idealize.SL.Sem

/-- The kernel program as printed runs to its end and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments both programs end with the result array at the same function of
    those arguments: the kernel program at `Folded.result` (its three regions and the host operations between them,
    composed), the reference at its composed term, which is that function (`SameFunction.reference_eq`). -/
theorem algebraic : Cert.algebraic_KernelIdeal_ReferenceIdeal := by
  intro m ρ m' ρ' _ hagree
  refine ⟨_, Cert.KernelIdeal.Folded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.SameFunction.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
